-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S5x128 : Shape := ⟨2, ![5, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S262144x128 .f32) (main_arg5 : FVec F S5x128 .f32) (main_v13 : IVec S_ 1) (main_v16 : IVec S262144x128 1) : IVec S_ 1 :=
  let main_c_5 : IVec S_ 1 := constantI S_ 1 1#1
  let main_v17 : IVec S_ 1 := (fun x v => Host.reduce IntOp.andi x v reducesTo_S262144x128_S_d0_1 h_S_) main_v16 main_c_5
  let main_v18 : IVec S_ 1 := andi main_v13 main_v17
  let main_v19 : FVec F S262144x128 .f32 := Host.absf main_arg4
  let main_cst_6 : FVec F S_ .f32 := constant S_ .f32 0x7F800000#32
  let main_v20 : FVec F S262144x128 .f32 := broadcastInDim S262144x128 ![] bcast_S_S262144x128 main_cst_6
  let main_v21 : IVec S262144x128 1 := cmpf .olt main_v19 main_v20
  let main_c_7 : IVec S_ 1 := constantI S_ 1 1#1
  let main_v22 : IVec S_ 1 := (fun x v => Host.reduce IntOp.andi x v reducesTo_S262144x128_S_d0_1 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  main_v28

def fn {F : FTy → Type} [FloatOps F] (main_arg0 : FVec F S262144x128 .f32) (main_arg1 : FVec F S262144x128 .f32) (main_arg2 : FVec F S262144x128 .f32) (main_arg3 : FVec F S262144x128 .f32) (main_arg4 : FVec F S262144x128 .f32) (main_arg5 : FVec F S5x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x128 .f32 := Host.absf main_arg3
  let main_cst_4 : FVec F S_ .f32 := constant S_ .f32 0x7F800000#32
  let main_v15 : FVec F S262144x128 .f32 := broadcastInDim S262144x128 ![] bcast_S_S262144x128 main_cst_4
  let main_v16 : IVec S262144x128 1 := cmpf .olt main_v14 main_v15
  fn_part1 (F := F) main_arg4 main_arg5 main_v13 main_v16
-- ==== Kernel.lean ====
abbrev S262144x128 : Shape := ⟨2, ![262144, 128]⟩
abbrev S5x128 : Shape := ⟨2, ![5, 128]⟩
abbrev S1x1 : Shape := ⟨2, ![1, 1]⟩
abbrev S4096x128 : Shape := ⟨2, ![4096, 128]⟩
abbrev S128x5 : Shape := ⟨2, ![128, 5]⟩
abbrev S5 : Shape := ⟨1, ![5]⟩
abbrev S5x1 : Shape := ⟨2, ![5, 1]⟩
abbrev S1x5 : Shape := ⟨2, ![1, 5]⟩
abbrev S4096 : Shape := ⟨1, ![4096]⟩
abbrev S4096x1 : Shape := ⟨2, ![4096, 1]⟩
abbrev S4096x5 : Shape := ⟨2, ![4096, 5]⟩
abbrev S1 : Shape := ⟨1, ![1]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S262144x128, .f32⟩
  | .hbm, ⟨5, _⟩ => ⟨S5x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S5x128, .f32⟩
  | .local _ .vmem, ⟨11, _⟩ => ⟨S1x1, .f32⟩
  | .local _ .vmem, ⟨12, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v140 : BitVec 1 := Scalar.cmpi .eq arg0 c63_i32
  let v141 : BitVec 32 := Scalar.extui v140
  let c0_i32_35 : BitVec 32 := 0#32
  let v142 : BitVec 1 := Scalar.cmpi .ne v141 c0_i32_35
  v142

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5x128_S5x128_0_0 : ∀ a, (![0, 0] : Fin 2 → Nat) a + S5x128.size a ≤ S5x128.size a
  h_S5x128 : 0 < S5x128.numel
  bitsLt_bf16_f32 : FTy.bits .bf16 < FTy.bits .f32
  transposes_S5x128_p1_0_S128x5 : S5x128.Transposes [1, 0] S128x5
  reduces_S5x128_S5 : S5x128.Reduces [1] S5
  shapeCasts_S5_S5x1 : S5.ShapeCasts S5x1
  transposes_S5x1_p1_0_S1x5 : S5x1.Transposes [1, 0] S1x5
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x5 : S4096x1.Broadcasts S4096x5
  broadcasts_S1x5_S4096x5 : S1x5.Broadcasts S4096x5
  slices_S4096x5_o0_0_S4096x1 : S4096x5.Slices ![0, 0] S4096x1
  slices_S4096x5_o0_1_S4096x1 : S4096x5.Slices ![0, 1] S4096x1
  slices_S4096x5_o0_2_S4096x1 : S4096x5.Slices ![0, 2] S4096x1
  slices_S4096x5_o0_3_S4096x1 : S4096x5.Slices ![0, 3] S4096x1
  slices_S4096x5_o0_4_S4096x1 : S4096x5.Slices ![0, 4] S4096x1
  reduces_S4096x1_S1 : S4096x1.Reduces [0] S1
  shapeCasts_S1_S1x1 : S1.ShapeCasts S1x1
  shapeCasts_S1x1_S_ : S1x1.ShapeCasts S_
  dot_S4096x128_S128x5_S4096x5_1_0_0_1_n_n_wf : DotDims.WF S4096x128 S128x5 S4096x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S4096x128_S128x5_S4096x5_1_0_0_1_n_n : DotDims S4096x128 S128x5 S4096x5 where
  lhsContracting := [1]
  rhsContracting := [0]
  lhsNonContracting := [0]
  rhsNonContracting := [1]
  lhsBatch := []
  rhsBatch := []
  wf := dot_S4096x128_S128x5_S4096x5_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S262144x128 : Shape := ⟨2, ![262144, 128]⟩
abbrev S5x128 : Shape := ⟨2, ![5, 128]⟩
abbrev S_ : Shape := ⟨0, ![]⟩
abbrev S262144 : Shape := ⟨1, ![262144]⟩
abbrev S262144x1 : Shape := ⟨2, ![262144, 1]⟩
abbrev S5 : Shape := ⟨1, ![5]⟩
abbrev S1x5 : Shape := ⟨2, ![1, 5]⟩
abbrev S262144x5 : Shape := ⟨2, ![262144, 5]⟩
abbrev S128x5 : Shape := ⟨2, ![128, 5]⟩

abbrev nBuf : Space → Nat
  | .hbm => 190
  | .vmem => 0
  | .smem => 0
  | _ => 0

abbrev hbmTy0_0 (i : Nat) : BufTy := match i % 128 with
  | 0 => ⟨S262144x128, .f32⟩
  | 1 => ⟨S262144x128, .f32⟩
  | 2 => ⟨S262144x128, .f32⟩
  | 3 => ⟨S262144x128, .f32⟩
  | 4 => ⟨S262144x128, .f32⟩
  | 5 => ⟨S5x128, .f32⟩
  | 6 => ⟨S262144x128, .f32⟩
  | 7 => ⟨S_, .f32⟩
  | 8 => ⟨S262144, .f32⟩
  | 9 => ⟨S262144x1, .f32⟩
  | 10 => ⟨S5x128, .f32⟩
  | 11 => ⟨S_, .f32⟩
  | 12 => ⟨S5, .f32⟩
  | 13 => ⟨S1x5, .f32⟩
  | 14 => ⟨S262144x5, .f32⟩
  | 15 => ⟨S262144x5, .f32⟩
  | 16 => ⟨S262144x5, .f32⟩
  | 17 => ⟨S128x5, .f32⟩
  | 18 => ⟨S262144x5, .f32⟩
  | 19 => ⟨S_, .f32⟩
  | 20 => ⟨S262144x5, .f32⟩
  | 21 => ⟨S262144x5, .f32⟩
  | 22 => ⟨S262144x5, .f32⟩
  | 23 => ⟨S262144x128, .f32⟩
  | 24 => ⟨S_, .f32⟩
  | 25 => ⟨S262144, .f32⟩
  | 26 => ⟨S262144x1, .f32⟩
  | 27 => ⟨S5x128, .f32⟩
  | 28 => ⟨S_, .f32⟩
  | 29 => ⟨S5, .f32⟩
  | 30 => ⟨S1x5, .f32⟩
  | 31 => ⟨S262144x5, .f32⟩
  | 32 => ⟨S262144x5, .f32⟩
  | 33 => ⟨S262144x5, .f32⟩
  | 34 => ⟨S128x5, .f32⟩
  | 35 => ⟨S262144x5, .f32⟩
  | 36 => ⟨S_, .f32⟩
  | 37 => ⟨S262144x5, .f32⟩
  | 38 => ⟨S262144x5, .f32⟩
  | 39 => ⟨S262144x5, .f32⟩
  | 40 => ⟨S262144x128, .f32⟩
  | 41 => ⟨S_, .f32⟩
  | 42 => ⟨S262144, .f32⟩
  | 43 => ⟨S262144x1, .f32⟩
  | 44 => ⟨S5x128, .f32⟩
  | 45 => ⟨S_, .f32⟩
  | 46 => ⟨S5, .f32⟩
  | 47 => ⟨S1x5, .f32⟩
  | 48 => ⟨S262144x5, .f32⟩
  | 49 => ⟨S262144x5, .f32⟩
  | 50 => ⟨S262144x5, .f32⟩
  | 51 => ⟨S128x5, .f32⟩
  | 52 => ⟨S262144x5, .f32⟩
  | 53 => ⟨S_, .f32⟩
  | 54 => ⟨S262144x5, .f32⟩
  | 55 => ⟨S262144x5, .f32⟩
  | 56 => ⟨S262144x5, .f32⟩
  | 57 => ⟨S262144x128, .f32⟩
  | 58 => ⟨S_, .f32⟩
  | 59 => ⟨S262144, .f32⟩
  | 60 => ⟨S262144x1, .f32⟩
  | 61 => ⟨S5x128, .f32⟩
  | 62 => ⟨S_, .f32⟩
  | 63 => ⟨S5, .f32⟩
  | 64 => ⟨S1x5, .f32⟩
  | 65 => ⟨S262144x5, .f32⟩
  | 66 => ⟨S262144x5, .f32⟩
  | 67 => ⟨S262144x5, .f32⟩
  | 68 => ⟨S128x5, .f32⟩
  | 69 => ⟨S262144x5, .f32⟩
  | 70 => ⟨S_, .f32⟩
  | 71 => ⟨S262144x5, .f32⟩
  | 72 => ⟨S262144x5, .f32⟩
  | 73 => ⟨S262144x5, .f32⟩
  | 74 => ⟨S262144x128, .f32⟩
  | 75 => ⟨S_, .f32⟩
  | 76 => ⟨S262144, .f32⟩
  | 77 => ⟨S262144x1, .f32⟩
  | 78 => ⟨S5x128, .f32⟩
  | 79 => ⟨S_, .f32⟩
  | 80 => ⟨S5, .f32⟩
  | 81 => ⟨S1x5, .f32⟩
  | 82 => ⟨S262144x5, .f32⟩
  | 83 => ⟨S262144x5, .f32⟩
  | 84 => ⟨S262144x5, .f32⟩
  | 85 => ⟨S128x5, .f32⟩
  | 86 => ⟨S262144x5, .f32⟩
  | 87 => ⟨S_, .f32⟩
  | 88 => ⟨S262144x5, .f32⟩
  | 89 => ⟨S262144x5, .f32⟩
  | 90 => ⟨S262144x5, .f32⟩
  | 91 => ⟨S262144x1, .f32⟩
  | 92 => ⟨S262144, .f32⟩
  | 93 => ⟨S262144x1, .f32⟩
  | 94 => ⟨S262144, .f32⟩
  | 95 => ⟨S262144, .f32⟩
  | 96 => ⟨S262144x1, .f32⟩
  | 97 => ⟨S262144, .f32⟩
  | 98 => ⟨S262144, .f32⟩
  | 99 => ⟨S262144x1, .f32⟩
  | 100 => ⟨S262144, .f32⟩
  | 101 => ⟨S262144, .f32⟩
  | 102 => ⟨S262144x1, .f32⟩
  | 103 => ⟨S262144, .f32⟩
  | 104 => ⟨S262144, .f32⟩
  | 105 => ⟨S262144x1, .f32⟩
  | 106 => ⟨S262144, .f32⟩
  | 107 => ⟨S262144x1, .f32⟩
  | 108 => ⟨S262144, .f32⟩
  | 109 => ⟨S262144, .f32⟩
  | 110 => ⟨S262144x1, .f32⟩
  | 111 => ⟨S262144, .f32⟩
  | 112 => ⟨S262144, .f32⟩
  | 113 => ⟨S262144x1, .f32⟩
  | 114 => ⟨S262144, .f32⟩
  | 115 => ⟨S262144, .f32⟩
  | 116 => ⟨S262144x1, .f32⟩
  | 117 => ⟨S262144, .f32⟩
  | 118 => ⟨S262144, .f32⟩
  | 119 => ⟨S262144x1, .f32⟩
  | 120 => ⟨S262144, .f32⟩
  | 121 => ⟨S262144, .f32⟩
  | 122 => ⟨S262144x1, .f32⟩
  | 123 => ⟨S262144, .f32⟩
  | 124 => ⟨S262144, .f32⟩
  | 125 => ⟨S262144x1, .f32⟩
  | 126 => ⟨S262144, .f32⟩
  | 127 => ⟨S262144, .f32⟩
  | _ => ⟨S262144x128, .f32⟩

abbrev hbmTy0_1 (i : Nat) : BufTy := match i % 128 with
  | 0 => ⟨S_, .f32⟩
  | 1 => ⟨S262144, .f32⟩
  | 2 => ⟨S262144, .f32⟩
  | 3 => ⟨S262144, .f32⟩
  | 4 => ⟨S262144x1, .f32⟩
  | 5 => ⟨S262144, .f32⟩
  | 6 => ⟨S262144x1, .f32⟩
  | 7 => ⟨S262144, .f32⟩
  | 8 => ⟨S262144, .f32⟩
  | 9 => ⟨S262144x1, .f32⟩
  | 10 => ⟨S262144, .f32⟩
  | 11 => ⟨S262144, .f32⟩
  | 12 => ⟨S262144x1, .f32⟩
  | 13 => ⟨S262144, .f32⟩
  | 14 => ⟨S262144, .f32⟩
  | 15 => ⟨S262144x1, .f32⟩
  | 16 => ⟨S262144, .f32⟩
  | 17 => ⟨S262144x1, .f32⟩
  | 18 => ⟨S262144, .f32⟩
  | 19 => ⟨S262144, .f32⟩
  | 20 => ⟨S262144x1, .f32⟩
  | 21 => ⟨S262144, .f32⟩
  | 22 => ⟨S262144, .f32⟩
  | 23 => ⟨S262144x1, .f32⟩
  | 24 => ⟨S262144, .f32⟩
  | 25 => ⟨S262144, .f32⟩
  | 26 => ⟨S_, .f32⟩
  | 27 => ⟨S262144, .f32⟩
  | 28 => ⟨S262144, .f32⟩
  | 29 => ⟨S262144, .f32⟩
  | 30 => ⟨S262144x1, .f32⟩
  | 31 => ⟨S262144, .f32⟩
  | 32 => ⟨S262144x1, .f32⟩
  | 33 => ⟨S262144, .f32⟩
  | 34 => ⟨S262144, .f32⟩
  | 35 => ⟨S262144x1, .f32⟩
  | 36 => ⟨S262144, .f32⟩
  | 37 => ⟨S262144, .f32⟩
  | 38 => ⟨S262144x1, .f32⟩
  | 39 => ⟨S262144, .f32⟩
  | 40 => ⟨S262144, .f32⟩
  | 41 => ⟨S262144x1, .f32⟩
  | 42 => ⟨S262144, .f32⟩
  | 43 => ⟨S262144x1, .f32⟩
  | 44 => ⟨S262144, .f32⟩
  | 45 => ⟨S262144, .f32⟩
  | 46 => ⟨S262144x1, .f32⟩
  | 47 => ⟨S262144, .f32⟩
  | 48 => ⟨S262144, .f32⟩
  | 49 => ⟨S262144x1, .f32⟩
  | 50 => ⟨S262144, .f32⟩
  | 51 => ⟨S262144, .f32⟩
  | 52 => ⟨S_, .f32⟩
  | 53 => ⟨S262144, .f32⟩
  | 54 => ⟨S262144, .f32⟩
  | 55 => ⟨S262144, .f32⟩
  | 56 => ⟨S262144, .f32⟩
  | 57 => ⟨S262144, .f32⟩
  | 58 => ⟨S_, .f32⟩
  | 59 => ⟨S_, .f32⟩
  | 60 => ⟨S_, .f32⟩
  | 61 => ⟨S_, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_14 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_15 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_cst_16 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_cst_17 : Ref sig .tc := ⟨.hbm, 186, rfl⟩
abbrev main_v162 : Ref sig .tc := ⟨.hbm, 187, rfl⟩
abbrev main_cst_18 : Ref sig .tc := ⟨.hbm, 188, rfl⟩
abbrev main_v163 : Ref sig .tc := ⟨.hbm, 189, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S5x128_S5_d1 : S5x128.ReducesTo [1] S5
  bcast_S5_S1x5_1 : S5.BroadcastsInDim S1x5 (![1] : Fin 1 → Fin S1x5.rank)
  bcast_S262144x1_S262144x5_0_1 : S262144x1.BroadcastsInDim S262144x5 (![0, 1] : Fin 2 → Fin S262144x5.rank)
  bcast_S1x5_S262144x5_0_1 : S1x5.BroadcastsInDim S262144x5 (![0, 1] : Fin 2 → Fin S262144x5.rank)
  transposes_S5x128_S128x5_1_0 : S5x128.Transposes [1, 0] S128x5
  bcast_S_S262144x5 : S_.BroadcastsInDim S262144x5 (![] : Fin 0 → Fin S262144x5.rank)
  slices_S262144x5_S262144x1_0_0 : S262144x5.Slices ![0, 0] S262144x1
  shapeCasts_S262144x1_S262144 : S262144x1.ShapeCasts S262144
  slices_S262144x5_S262144x1_0_1 : S262144x5.Slices ![0, 1] S262144x1
  slices_S262144x5_S262144x1_0_2 : S262144x5.Slices ![0, 2] S262144x1
  slices_S262144x5_S262144x1_0_3 : S262144x5.Slices ![0, 3] S262144x1
  slices_S262144x5_S262144x1_0_4 : S262144x5.Slices ![0, 4] S262144x1
  bcast_S_S262144 : S_.BroadcastsInDim S262144 (![] : Fin 0 → Fin S262144.rank)
  reducesTo_S262144_S_d0 : S262144.ReducesTo [0] S_
  dot_S262144x128_S128x5_S262144x5_1_0_0_1_n_n_wf : DotDims.WF S262144x128 S128x5 S262144x5 [1] [0] [0] [1] [] []

variable [Facts₀]

def dot_S262144x128_S128x5_S262144x5_1_0_0_1_n_n : DotDims S262144x128 S128x5 S262144x5 where
  lhsContracting := [1]
  rhsContracting := [0]
  lhsNonContracting := [0]
  rhsNonContracting := [1]
  lhsBatch := []
  rhsBatch := []
  wf := dot_S262144x128_S128x5_S262144x5_1_0_0_1_n_n_wf

class Facts : Prop extends Facts₀ where

variable [Facts]
-- ==== Proof.KernelPieces.lean ====
/-
  What one run of the body leaves behind, as values. The body keeps a 1 × 1 running value between grid points. At the
  first point it stores zero there, reads it back, and stores zero plus the point's contribution; at every later
  point it stores what it found plus the point's contribution; at the last point it also copies the updated value to
  the output block. In every case the stored value is one expression `accOf` of the point's six input blocks and of
  the value found (zero at the first point).
-/
import proofs.«138014_j1322849927791_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- The running value after a point: from the five row blocks `x0 … x4`, the centres `x5` and the value `xs` found. -/
def accOf (x0 x1 x2 x3 x4 : Vec F S4096x128 .f32) (x5 : Vec F S5x128 .f32) (xs : Vec F S1x1 .f32) : FVec F S1x1 .f32 :=
  k0_pay13 (k0_pay5 x5 x1)
    (k0_pay8 (k0_pay2 x5) (k0_pay3 x5) (k0_pay6 x2) (k0_pay7 x2) (constant S4096x5 .f32 0x00000000#32))
    (k0_pay9 (k0_pay2 x5) (k0_pay3 x5) x3) (k0_pay10 (k0_pay2 x5) (k0_pay3 x5) x4)
    (k0_pay11 (k0_pay2 x5) (k0_pay3 x5) (k0_pay4 x5 x0) (k0_pay5 x5 x1) (k0_pay6 x2) (k0_pay7 x2)
      (constant S4096x5 .f32 0x00000000#32) x3 x4)
    (k0_pay12 (k0_pay4 x5 x0) (k0_pay5 x5 x1)) xs

/-- A later point that is not the last: the running value becomes `accOf` of what was found. -/
theorem scratch_B (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S5x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S4096x128 .f32) (x1 : Vec F S4096x128 .f32) (x2 : Vec F S4096x128 .f32) (x3 : Vec F S4096x128 .f32) (x4 : Vec F S4096x128 .f32) (x5 : Vec F S5x128 .f32) (xs0 : Vec F S1x1 .f32) :
    sout0_B_0 c i arg1 harg1 arg2 harg2 arg3 harg3 arg4 harg4 arg5 harg5 arg6 harg6 arg7 harg7 arg8 harg8 hc0 hc1 x0 x1 x2 x3 x4 x5 xs0 = accOf x0 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S4096x128) hz, View.ld_unit_zero (S := S5x128) hz, View.ld_unit_zero (S := S1x1) hz]
  rfl

/-- The last point: the same for the running value, -/
theorem scratch_C (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S5x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S4096x128 .f32) (x1 : Vec F S4096x128 .f32) (x2 : Vec F S4096x128 .f32) (x3 : Vec F S4096x128 .f32) (x4 : Vec F S4096x128 .f32) (x5 : Vec F S5x128 .f32) (xs0 : Vec F S1x1 .f32) :
    sout0_C_0 c i arg1 harg1 arg2 harg2 arg3 harg3 arg4 harg4 arg5 harg5 arg6 harg6 arg7 harg7 arg8 harg8 hc0 hc1 x0 x1 x2 x3 x4 x5 xs0 = accOf x0 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S4096x128) hz, View.ld_unit_zero (S := S5x128) hz, View.ld_unit_zero (S := S1x1) hz]
  rfl

/-- and the output block receives the updated running value, read back. -/
theorem out_C (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S5x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S4096x128 .f32) (x1 : Vec F S4096x128 .f32) (x2 : Vec F S4096x128 .f32) (x3 : Vec F S4096x128 .f32) (x4 : Vec F S4096x128 .f32) (x5 : Vec F S5x128 .f32) (xs0 : Vec F S1x1 .f32) :
    out0_C_6 c i arg1 harg1 arg2 harg2 arg3 harg3 arg4 harg4 arg5 harg5 arg6 harg6 arg7 harg7 arg8 harg8 hc0 hc1 x0 x1 x2 x3 x4 x5 xs0 = accOf x0 x1 x2 x3 x4 x5 xs0 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread, harg8.read_unread, View.ld_unit_zero (S := S4096x128) hz, View.ld_unit_zero (S := S5x128) hz, View.ld_unit_zero (S := S1x1) hz]
  rfl

/-- The first point: zero is stored, read back, and the running value becomes `accOf` of that zero block. -/
theorem scratch_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S5x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S4096x128 .f32) (x1 : Vec F S4096x128 .f32) (x2 : Vec F S4096x128 .f32) (x3 : Vec F S4096x128 .f32) (x4 : Vec F S4096x128 .f32) (x5 : Vec F S5x128 .f32) :
    sout0_A_0 c i arg1 harg1 arg2 harg2 arg3 harg3 arg4 harg4 arg5 harg5 arg6 harg6 arg7 harg7 arg8 harg8 hc0 hc1 x0 x1 x2 x3 x4 x5 = accOf x0 x1 x2 x3 x4 x5 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg8.read_unread, View.ld_unit_zero (S := S4096x128) hz, View.ld_unit_zero (S := S5x128) hz, View.ld_unit_zero (S := S1x1) hz]
  rfl

end Cert.KernelIdeal.KValue

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.RowTerm.lean ====
/-
  The loss this certificate is about, as plain mathematics on the extended reals.

  Five arrays of row vectors (x, nx, ni, nx1, ni1, each with 128 entries per row) and five centre vectors are given.
  For a row vector v and a centre c the squared distance is  d(v, c) = (‖v‖² + ‖c‖²) − 2·⟨v, c⟩.  Write d a j for the
  squared distance of array a's row to centre j. One row's loss is the sum of three margins,
      (d 0 0 + d 1 1 + d 3 2 + d 2 3 + d 4 4) − w·(d 0 1 + d 0 2 + d 0 3 + d 0 4 + d 1 0 + d 2 0 + d 3 0 + d 4 0)
    + (d 1 1 + d 2 3 + d 3 2 + d 4 4) − w·(d 1 3 + d 2 1 + d 3 4 + d 4 2)
    + (d 1 1 + d 3 2 + d 2 3 + d 4 4) − w·(d 1 2 + d 3 1 + d 2 4 + d 4 3),
  with w the single-precision number nearest 3/10, and the result is the sum of the rows' losses, floored at zero.
  Every sum is written in the order the two programs add in, so that each program's text is this text.
-/
import Idealize.ShloMosaic.PureOps.Ideal
import Idealize.ShloMosaic.PureOps.Ideal.Laws
import Idealize.ShloMosaic.Lib.ValueIdx
import proofs.«138014_j1322849927791_2_alg».proof.Proof.LibReindex

noncomputable section

open scoped BigOperators

namespace Cert.Spec

open Idealize.ShloMosaic Idealize.ShloMosaic.ValueIdx

/-- The factor 2 of the cross term, as the single-precision word both programs carry. -/
abbrev two : EReal := Ideal.ofBits .f32 0x40000000#32
/-- The margin weight, the single-precision number nearest 3/10, as the word both programs carry. -/
abbrev wt : EReal := Ideal.ofBits .f32 0x3E99999A#32

/-- The squared distance of a vector to a centre: the two squared norms, minus twice the inner product. -/
def sqDist (v c : Fin 128 → EReal) : EReal :=
  ((∑ k, v k * v k) + (∑ k, c k * c k)) - two * ∑ k, v k * c k

/-- One row's loss from its twenty-five squared distances: `d a j` is array `a`'s row against centre `j`. -/
def rowLoss (d : Fin 5 → Fin 5 → EReal) : EReal :=
  ((d 0 0 + d 1 1 + d 3 2 + d 2 3 + d 4 4)
      - wt * (d 0 1 + d 0 2 + d 0 3 + d 0 4 + d 1 0 + d 2 0 + d 3 0 + d 4 0)
    + ((d 1 1 + d 2 3 + d 3 2 + d 4 4) - wt * (d 1 3 + d 2 1 + d 3 4 + d 4 2)))
    + ((d 1 1 + d 3 2 + d 2 3 + d 4 4) - wt * (d 1 2 + d 3 1 + d 2 4 + d 4 3))

/-- Row `r` of a matrix with 128 columns, as a vector. -/
def rowOf {n : Nat} (X : (⟨2, ![n, 128]⟩ : Shape).Idx → EReal) (r : Fin n) : Fin 128 → EReal := fun k => X (ix2 r k)

/-- The loss of row `r`: the five arrays' rows `r` against the five centres. -/
def rowLossAt {n : Nat} (X : Fin 5 → (⟨2, ![n, 128]⟩ : Shape).Idx → EReal) (C : (⟨2, ![5, 128]⟩ : Shape).Idx → EReal)
    (r : Fin n) : EReal :=
  rowLoss fun a j => sqDist (rowOf (X a) r) (rowOf C j)

/-- Rows that agree entry by entry have the same loss (a block of rows against the whole array). -/
theorem rowLossAt_congr {n n' : Nat} (X : Fin 5 → (⟨2, ![n, 128]⟩ : Shape).Idx → EReal)
    (X' : Fin 5 → (⟨2, ![n', 128]⟩ : Shape).Idx → EReal) (C : (⟨2, ![5, 128]⟩ : Shape).Idx → EReal) (r : Fin n) (r' : Fin n')
    (h : ∀ a k, X a (ix2 r k) = X' a (ix2 r' k)) : rowLossAt X C r = rowLossAt X' C r' := by
  unfold rowLossAt
  have e : ∀ a, rowOf (X a) r = rowOf (X' a) r' := fun a => funext fun k => h a k
  simp only [e]

/-- The sum of all 262144 rows' terms is the sum, over the 64 blocks of 4096 consecutive rows, of each block's sum. -/
theorem sum_rows_blocks (f : Fin 262144 → EReal) :
    ∑ r : Fin 262144, f r = ∑ t : Fin 64, ∑ j : Fin 4096, f ⟨t.val * 4096 + j.val, Cert.LibReindex.mul_add_lt t j⟩ :=
  Cert.LibReindex.sum_mul_add 64 4096 rfl f

end Cert.Spec

end
-- ==== Proof.LibColumn.lean ====
/-
  A column of row values laid out for a `keepdims` sum: a vector of `a` values recast as an `[a, 1]` column, and such a
  column broadcast along its unit axis to an `[a, b]` matrix — each read at an index given by its coordinates. (The
  companion row forms, `[a] → [1, a]` and `[1, b] → [a, b]`, are in the library.)
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.KernelTile.lean ====
/-
  The kernel's distance tile. For a block of 4096 rows `x` and the five centres `c`, the body computes a 4096 × 5 tile
  whose entry (j, i) is  (‖x_j‖² + ‖c_i‖²) − 2·⟨x_j, c_i⟩ : the rows' squared norms as a column, the centres' squared
  norms as a row, and the product of the rows with the transposed centres (a change of float format is the identity on
  the extended reals). All five arrays' tiles are this one expression.
-/
import proofs.«138014_j1322849927791_2_alg».proof.Proof.Gen.KernelIdeal.Skeleton
import proofs.«138014_j1322849927791_2_alg».proof.Proof.RowTerm
import proofs.«138014_j1322849927791_2_alg».proof.Proof.LibColumn
import proofs.«138014_j1322849927791_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KValue

open Idealize.ShloMosaic Idealize.ShloMosaic.ValueIdx Cert.KernelIdeal Cert.KernelIdeal.Gen Cert.Spec

/-- Inserting column `k` into the one-coordinate index `j` of the row sums gives entry (j, k). -/
theorem lift_rows {n : Nat} (hr : (⟨2, ![n, 128]⟩ : Shape).Reduces [1] ⟨1, ![n]⟩) (j : Fin n) (k : Fin 128) :
    hr.lift (ix1 j) k = ix2 j k :=
  funext fun a => Fin.ext (by match a with | ⟨0, _⟩ => rfl | ⟨1, _⟩ => rfl)

/-- The column of the rows' squared norms: entry (j, ·) is the sum over the row of the squares. -/
theorem sqNormCol_apply (x : Vec Ideal S4096x128 .f32) (j : Fin 4096) (u : Fin 1) :
    k0_pay6 (F := Ideal) x (ix2 j u) = ∑ k : Fin 128, x (ix2 j k) * x (ix2 j k) := by
  unfold k0_pay6
  refine (Cert.LibColumn.shapeCast_a_a1_apply _ _ j u).trans ?_
  refine (Ideal.multiReduction_add_single (mulf (F := Ideal) x x) _ reduces_S4096x128_S4096 _ _ (ix1 j)).trans ?_
  refine Finset.sum_congr rfl fun (k : Fin 128) _ => ?_
  rw [lift_rows]; rfl

/-- The row of the centres' squared norms: entry (·, i) is the sum over centre `i` of the squares. -/
theorem centreSq_apply (c : Vec Ideal S5x128 .f32) (u : Fin 1) (i : Fin 5) :
    k0_pay3 (F := Ideal) c (ix2 u i) = ∑ k : Fin 128, c (ix2 i k) * c (ix2 i k) := by
  unfold k0_pay3
  refine (transpose_ix2_apply _ _ u i).trans ?_
  refine (Cert.LibColumn.shapeCast_a_a1_apply _ _ i u).trans ?_
  refine (Ideal.multiReduction_add_single (mulf (F := Ideal) c c) _ reduces_S5x128_S5 _ _ (ix1 i)).trans ?_
  refine Finset.sum_congr rfl fun (k : Fin 128) _ => ?_
  rw [lift_rows]; rfl

/-- The kernel's product contracts the rows' 128 entries against the transposed centres' 128 rows. -/
theorem dot_plain : dot_S4096x128_S128x5_S4096x5_1_0_0_1_n_n = DotDims.plain 4096 128 5 :=
  Cert.RowLib.dotDims_eq_plain _ rfl rfl rfl rfl rfl rfl

/-- The product of a row block with the transposed centres, accumulated into zero: entry (j, i) is ⟨x_j, c_i⟩. -/
theorem cross_apply (x : Vec Ideal S4096x128 .f32) (c : Vec Ideal S5x128 .f32) (j : Fin 4096) (i : Fin 5) :
    matmul dot_S4096x128_S128x5_S4096x5_1_0_0_1_n_n none (k0_pay7 (F := Ideal) x) (k0_pay2 (F := Ideal) c)
        (constant (F := Ideal) S4096x5 .f32 0x00000000#32) (ix2 j i)
      = ∑ k : Fin 128, x (ix2 j k) * c (ix2 i k) := by
  rw [dot_plain]
  refine (Cert.RowLib.matmul_plain_zero_ix2 none _ _ j i).trans ?_
  refine Finset.sum_congr rfl fun k _ => ?_
  unfold k0_pay2 k0_pay7
  rw [transpose_ix2_apply]; rfl

/-- The tile from its three ingredients: the column of row norms, the row of centre norms, the cross products. -/
def tileOf (col : FVec Ideal S4096x1 .f32) (cn : FVec Ideal S1x5 .f32) (mm : FVec Ideal S4096x5 .f32) : FVec Ideal S4096x5 .f32 :=
  subf (addf (broadcastTo S4096x5 col broadcasts_S4096x1_S4096x5) (broadcastTo S4096x5 cn broadcasts_S1x5_S4096x5))
    (mulf (broadcast S4096x5 (Scalar.ofBits (F := Ideal) .f32 0x40000000#32)) mm)

theorem tileOf_apply (col : FVec Ideal S4096x1 .f32) (cn : FVec Ideal S1x5 .f32) (mm : FVec Ideal S4096x5 .f32)
    (j : Fin 4096) (i : Fin 5) :
    tileOf col cn mm (ix2 j i) = (col (ix2 j (0 : Fin 1)) + cn (ix2 (0 : Fin 1) i)) - two * mm (ix2 j i) := by
  unfold tileOf
  rw [subf_apply, addf_apply, mulf_apply, broadcast_apply, Cert.LibColumn.broadcastTo_a1_ab_apply col _ j i,
    broadcastTo_1b_ab_apply cn _ j i]
  rfl

/-- The tile of a row block against the centres, as the body spells it for every one of the five arrays. -/
def tile (c : Vec Ideal S5x128 .f32) (x : Vec Ideal S4096x128 .f32) : FVec Ideal S4096x5 .f32 :=
  tileOf (k0_pay6 (F := Ideal) x) (k0_pay3 (F := Ideal) c)
    (matmul dot_S4096x128_S128x5_S4096x5_1_0_0_1_n_n none (k0_pay7 (F := Ideal) x) (k0_pay2 (F := Ideal) c)
      (constant (F := Ideal) S4096x5 .f32 0x00000000#32))

/-- Entry (j, i) of the tile is the squared distance of row `j` to centre `i`. -/
theorem tile_apply (c : Vec Ideal S5x128 .f32) (x : Vec Ideal S4096x128 .f32) (j : Fin 4096) (i : Fin 5) :
    tile c x (ix2 j i) = sqDist (rowOf x j) (rowOf c i) := by
  unfold tile
  rw [tileOf_apply, sqNormCol_apply, centreSq_apply, cross_apply]
  rfl

/-- The five spellings of the tile in the body are this tile. -/
theorem pay4_eq (c : Vec Ideal S5x128 .f32) (x : Vec Ideal S4096x128 .f32) : k0_pay4 (F := Ideal) c x = tile c x := rfl
theorem pay5_eq (c : Vec Ideal S5x128 .f32) (x : Vec Ideal S4096x128 .f32) : k0_pay5 (F := Ideal) c x = tile c x := rfl
theorem pay8_eq (c : Vec Ideal S5x128 .f32) (x : Vec Ideal S4096x128 .f32) :
    k0_pay8 (F := Ideal) (k0_pay2 c) (k0_pay3 c) (k0_pay6 x) (k0_pay7 x) (constant (F := Ideal) S4096x5 .f32 0x00000000#32) = tile c x := rfl
theorem pay9_eq (c : Vec Ideal S5x128 .f32) (x : Vec Ideal S4096x128 .f32) :
    k0_pay9 (F := Ideal) (k0_pay2 c) (k0_pay3 c) x = tile c x := rfl
theorem pay10_eq (c : Vec Ideal S5x128 .f32) (x : Vec Ideal S4096x128 .f32) :
    k0_pay10 (F := Ideal) (k0_pay2 c) (k0_pay3 c) x = tile c x := rfl

end Cert.KernelIdeal.KValue

end
-- ==== Proof.KernelRow.lean ====
/-
  One grid point's contribution. From the five tiles of squared distances the body picks single columns, combines
  them row by row into the three margins, adds the margins, sums the 4096 rows of the block, and adds that to the
  value carried so far: what it leaves is  carried + ∑ over the block's rows of the row loss.
-/
import proofs.«138014_j1322849927791_2_alg».proof.Proof.KernelTile

noncomputable section

open scoped BigOperators

namespace Cert.KernelIdeal.KValue

open Idealize.ShloMosaic Idealize.ShloMosaic.ValueIdx Cert.KernelIdeal Cert.KernelIdeal.Gen Cert.Spec

/-- Column `o` of a tile, cut out as a 4096 × 1 column, reads the tile at (j, o). -/
theorem col0_apply (X : FVec Ideal S4096x5 .f32) (h : S4096x5.Slices ![0, 0] S4096x1) (j : Fin 4096) :
    extractStridedSlice S4096x1 ![0, 0] X h (ix2 j (0 : Fin 1)) = X (ix2 j (0 : Fin 5)) :=
  slice2_axis1_apply 0 X h j 0 0 rfl
theorem col1_apply (X : FVec Ideal S4096x5 .f32) (h : S4096x5.Slices ![0, 1] S4096x1) (j : Fin 4096) :
    extractStridedSlice S4096x1 ![0, 1] X h (ix2 j (0 : Fin 1)) = X (ix2 j (1 : Fin 5)) :=
  slice2_axis1_apply 1 X h j 0 1 rfl
theorem col2_apply (X : FVec Ideal S4096x5 .f32) (h : S4096x5.Slices ![0, 2] S4096x1) (j : Fin 4096) :
    extractStridedSlice S4096x1 ![0, 2] X h (ix2 j (0 : Fin 1)) = X (ix2 j (2 : Fin 5)) :=
  slice2_axis1_apply 2 X h j 0 2 rfl
theorem col3_apply (X : FVec Ideal S4096x5 .f32) (h : S4096x5.Slices ![0, 3] S4096x1) (j : Fin 4096) :
    extractStridedSlice S4096x1 ![0, 3] X h (ix2 j (0 : Fin 1)) = X (ix2 j (3 : Fin 5)) :=
  slice2_axis1_apply 3 X h j 0 3 rfl
theorem col4_apply (X : FVec Ideal S4096x5 .f32) (h : S4096x5.Slices ![0, 4] S4096x1) (j : Fin 4096) :
    extractStridedSlice S4096x1 ![0, 4] X h (ix2 j (0 : Fin 1)) = X (ix2 j (4 : Fin 5)) :=
  slice2_axis1_apply 4 X h j 0 4 rfl

/-- Inserting row `k` into the one index of the column's sum gives entry (k, 0). -/
theorem lift_col (hr : S4096x1.Reduces [0] S1) (u : Fin 1) (k : Fin 4096) : hr.lift (ix1 u) k = ix2 k u :=
  funext fun a => Fin.ext (by match a with | ⟨0, _⟩ => rfl | ⟨1, _⟩ => rfl)

/-- What the body leaves in the carried 1 × 1 value after a point whose five row blocks are `X 0 … X 4` and whose
    centres are `c`, when it found `xs` there: `xs` plus the sum of the block's 4096 row losses. -/
theorem accum_apply (c : Vec Ideal S5x128 .f32) (X : Fin 5 → Vec Ideal S4096x128 .f32) (xs : Vec Ideal S1x1 .f32) :
    k0_pay13 (F := Ideal) (tile c (X 1)) (tile c (X 2)) (tile c (X 3)) (tile c (X 4))
        (k0_pay11 (F := Ideal) (k0_pay2 c) (k0_pay3 c) (tile c (X 0)) (tile c (X 1)) (k0_pay6 (X 2)) (k0_pay7 (X 2))
          (constant (F := Ideal) S4096x5 .f32 0x00000000#32) (X 3) (X 4))
        (k0_pay12 (F := Ideal) (tile c (X 0)) (tile c (X 1))) xs (ix2 (0 : Fin 1) (0 : Fin 1))
      = xs (ix2 (0 : Fin 1) (0 : Fin 1)) + ∑ j : Fin 4096, rowLossAt X c j := by
  unfold k0_pay13
  dsimp only
  rw [shapeCast_self, addf_apply]
  refine congrArg (xs (ix2 (0 : Fin 1) (0 : Fin 1)) + ·) ?_
  refine (Cert.LibColumn.shapeCast_a_a1_apply _ _ (0 : Fin 1) (0 : Fin 1)).trans ?_
  refine (Ideal.multiReduction_add_single _ _ reduces_S4096x1_S1 _ _ (ix1 (0 : Fin 1))).trans ?_
  refine Finset.sum_congr rfl fun (j : Fin 4096) _ => ?_
  rw [lift_col]
  unfold rowLossAt rowLoss k0_pay11 k0_pay12
  simp only [addf_apply, subf_apply, mulf_apply, broadcast_apply, col0_apply, col1_apply, col2_apply, col3_apply, col4_apply,
    pay8_eq, pay9_eq, pay10_eq, tile_apply]
  rfl

end Cert.KernelIdeal.KValue

end
-- ==== Proof.KernelBlocks.lean ====
/-
  The blocks the body sees are rows of the whole arrays. At grid point t each of the five row arrays hands the body
  its rows 4096·t … 4096·t + 4095, and the centres are handed whole at every point. So the sum over a block's rows of
  the row loss is the sum of the whole arrays' row losses over those 4096 consecutive rows.
-/
import proofs.«138014_j1322849927791_2_alg».proof.Proof.Gen.KernelIdeal.Frame
import proofs.«138014_j1322849927791_2_alg».proof.Proof.RowTerm
import Idealize.ShloMosaic.Lib.Pipeline.Value

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ)

/-- The five row arrays as the region finds them, in the order x, nx, ni, nx1, ni1. -/
def argsK (c : Dev nD) : Fin 5 → FVec Ideal S262144x128 .f32 := fun
  | 0 => V m c main_arg0
  | 1 => V m c main_arg1
  | 2 => V m c main_arg2
  | 3 => V m c main_arg3
  | 4 => V m c main_arg4
  | ⟨_ + 5, h⟩ => absurd h (Nat.not_lt.2 (Nat.le_add_left _ _))

/-- The centres as the region finds them. -/
def centresK (c : Dev nD) : FVec Ideal S5x128 .f32 := V m c main_arg5

/-- The five row blocks handed to the body at point `t`. -/
def blocks (c : Dev nD) (t : Fin cfg0.N) : Fin 5 → Vec Ideal S4096x128 .f32 := fun
  | 0 => iblk m c 0 t
  | 1 => iblk m c 1 t
  | 2 => iblk m c 2 t
  | 3 => iblk m c 3 t
  | 4 => iblk m c 4 t
  | ⟨_ + 5, h⟩ => absurd h (Nat.not_lt.2 (Nat.le_add_left _ _))

/-- Where each window's block sits: the row arrays' block index is (t, 0), the centres' is (0, 0). Decided over the grid. -/
theorem idx_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0))

theorem idx_centres : ∀ t : Fin cfg0.N, win0_5.index t 0 = 0 ∧ win0_5.index t 1 = 0 :=
  (by decide +kernel : ∀ t : Fin grid0.N, win0_5.index t 0 = 0 ∧ win0_5.index t 1 = 0)

/-- Row `j` of array 0's block at point `t` is row `4096·t + j` of the array. -/
theorem iblk0_apply (c : Dev nD) (t : Fin cfg0.N) (j : Fin 4096) (k : Fin 128) (r : Fin 262144) (hr : r.val = t.val * 4096 + j.val) :
    (iblk m c 0 t : Vec Ideal S4096x128 .f32) (ix2 j k) = (V m c main_arg0 : FVec Ideal S262144x128 .f32) (ix2 r k) := by
  unfold iblk
  rw [View.read_apply]
  show V m c main_arg0 _ = V m c main_arg0 _
  congr 1
  funext a
  apply Fin.ext
  match a with
  | ⟨0, _⟩ =>
    show win0_0.index t 0 * 4096 + 1 * j.val = r.val
    rw [(idx_rows t).1.1, hr]; omega
  | ⟨1, _⟩ =>
    show win0_0.index t 1 * 128 + 1 * k.val = k.val
    rw [(idx_rows t).1.2]; omega

/-- Row `j` of array 1's block at point `t` is row `4096·t + j` of the array. -/
theorem iblk1_apply (c : Dev nD) (t : Fin cfg0.N) (j : Fin 4096) (k : Fin 128) (r : Fin 262144) (hr : r.val = t.val * 4096 + j.val) :
    (iblk m c 1 t : Vec Ideal S4096x128 .f32) (ix2 j k) = (V m c main_arg1 : FVec Ideal S262144x128 .f32) (ix2 r k) := by
  unfold iblk
  rw [View.read_apply]
  show V m c main_arg1 _ = V m c main_arg1 _
  congr 1
  funext a
  apply Fin.ext
  match a with
  | ⟨0, _⟩ =>
    show win0_1.index t 0 * 4096 + 1 * j.val = r.val
    rw [(idx_rows t).2.1.1, hr]; omega
  | ⟨1, _⟩ =>
    show win0_1.index t 1 * 128 + 1 * k.val = k.val
    rw [(idx_rows t).2.1.2]; omega

/-- Row `j` of array 2's block at point `t` is row `4096·t + j` of the array. -/
theorem iblk2_apply (c : Dev nD) (t : Fin cfg0.N) (j : Fin 4096) (k : Fin 128) (r : Fin 262144) (hr : r.val = t.val * 4096 + j.val) :
    (iblk m c 2 t : Vec Ideal S4096x128 .f32) (ix2 j k) = (V m c main_arg2 : FVec Ideal S262144x128 .f32) (ix2 r k) := by
  unfold iblk
  rw [View.read_apply]
  show V m c main_arg2 _ = V m c main_arg2 _
  congr 1
  funext a
  apply Fin.ext
  match a with
  | ⟨0, _⟩ =>
    show win0_2.index t 0 * 4096 + 1 * j.val = r.val
    rw [(idx_rows t).2.2.1.1, hr]; omega
  | ⟨1, _⟩ =>
    show win0_2.index t 1 * 128 + 1 * k.val = k.val
    rw [(idx_rows t).2.2.1.2]; omega

/-- Row `j` of array 3's block at point `t` is row `4096·t + j` of the array. -/
theorem iblk3_apply (c : Dev nD) (t : Fin cfg0.N) (j : Fin 4096) (k : Fin 128) (r : Fin 262144) (hr : r.val = t.val * 4096 + j.val) :
    (iblk m c 3 t : Vec Ideal S4096x128 .f32) (ix2 j k) = (V m c main_arg3 : FVec Ideal S262144x128 .f32) (ix2 r k) := by
  unfold iblk
  rw [View.read_apply]
  show V m c main_arg3 _ = V m c main_arg3 _
  congr 1
  funext a
  apply Fin.ext
  match a with
  | ⟨0, _⟩ =>
    show win0_3.index t 0 * 4096 + 1 * j.val = r.val
    rw [(idx_rows t).2.2.2.1.1, hr]; omega
  | ⟨1, _⟩ =>
    show win0_3.index t 1 * 128 + 1 * k.val = k.val
    rw [(idx_rows t).2.2.2.1.2]; omega

/-- Row `j` of array 4's block at point `t` is row `4096·t + j` of the array. -/
theorem iblk4_apply (c : Dev nD) (t : Fin cfg0.N) (j : Fin 4096) (k : Fin 128) (r : Fin 262144) (hr : r.val = t.val * 4096 + j.val) :
    (iblk m c 4 t : Vec Ideal S4096x128 .f32) (ix2 j k) = (V m c main_arg4 : FVec Ideal S262144x128 .f32) (ix2 r k) := by
  unfold iblk
  rw [View.read_apply]
  show V m c main_arg4 _ = V m c main_arg4 _
  congr 1
  funext a
  apply Fin.ext
  match a with
  | ⟨0, _⟩ =>
    show win0_4.index t 0 * 4096 + 1 * j.val = r.val
    rw [(idx_rows t).2.2.2.2.1, hr]; omega
  | ⟨1, _⟩ =>
    show win0_4.index t 1 * 128 + 1 * k.val = k.val
    rw [(idx_rows t).2.2.2.2.2]; omega

/-- The centres' block at any point is the centres. -/
theorem iblk5_eq (c : Dev nD) (t : Fin cfg0.N) : (iblk m c 5 t : Vec Ideal S5x128 .f32) = centresK m c := by
  funext y
  unfold iblk centresK
  rw [View.read_apply]
  show V m c main_arg5 _ = V m c main_arg5 _
  congr 1
  funext a
  apply Fin.ext
  match a with
  | ⟨0, _⟩ =>
    show win0_5.index t 0 * 5 + 1 * (y 0).val = (y 0).val
    rw [(idx_centres t).1]; omega
  | ⟨1, _⟩ =>
    show win0_5.index t 1 * 128 + 1 * (y 1).val = (y 1).val
    rw [(idx_centres t).2]; omega

/-- Entry (j, k) of block `a` at point `t` is entry (4096·t + j, k) of array `a`. -/
theorem blocks_apply (c : Dev nD) (t : Fin cfg0.N) (a : Fin 5) (j : Fin 4096) (k : Fin 128) (r : Fin 262144)
    (hr : r.val = t.val * 4096 + j.val) : blocks m c t a (ix2 j k) = argsK m c a (ix2 r k) := by
  match a with
  | 0 => exact iblk0_apply m c t j k r hr
  | 1 => exact iblk1_apply m c t j k r hr
  | 2 => exact iblk2_apply m c t j k r hr
  | 3 => exact iblk3_apply m c t j k r hr
  | 4 => exact iblk4_apply m c t j k r hr

/-- The row loss of row `j` of the blocks at point `t` is the row loss of row `4096·t + j` of the whole arrays. -/
theorem rowLoss_block (c : Dev nD) (t : Fin cfg0.N) (j : Fin 4096) (r : Fin 262144) (hr : r.val = t.val * 4096 + j.val) :
    rowLossAt (blocks m c t) (centresK m c) j = rowLossAt (argsK m c) (centresK m c) r :=
  rowLossAt_congr _ _ _ j r fun a k => blocks_apply m c t a j k r hr

end Cert.KernelIdeal.KValue

end
-- ==== Proof.LibRunTotal.lean ====
/-
  A running total built by recursion — zero plus the first term at the first index, the previous total plus the
  next term afterwards — is the finite sum of the terms so far; at the last index it is the sum of all terms. Over an
  arbitrary additive commutative monoid.
-/
import Mathlib.Algebra.BigOperators.Fin

namespace Cert.LibRunTotal

open scoped BigOperators

variable {M : Type*} [AddCommMonoid M]

/-- The running total of `f` up to and including index `n`: reset to zero and add at the first index, add at each later one. -/
def runTotal {N : ℕ} (f : Fin N → M) : (n : ℕ) → n < N → M
  | 0, h => 0 + f ⟨0, h⟩
  | n + 1, h => runTotal f n (Nat.lt_of_succ_lt h) + f ⟨n + 1, h⟩

/-- The running total up to `n` is the sum of the first `n + 1` terms. -/
theorem runTotal_eq_sum {N : ℕ} (f : Fin N → M) :
    ∀ (n : ℕ) (h : n < N), runTotal f n h = ∑ i : Fin (n + 1), f ⟨i.val, by omega⟩
  | 0, h => by simp [runTotal]
  | n + 1, h => by
    rw [runTotal, runTotal_eq_sum f n]
    exact (Fin.sum_univ_castSucc (fun i : Fin (n + 1 + 1) => f ⟨i.val, by omega⟩)).symm

/-- At the last index the running total is the sum of all terms. -/
theorem runTotal_last {N n : ℕ} (hN : N = n + 1) (f : Fin N → M) (h : n < N) : runTotal f n h = ∑ i : Fin N, f i := by
  subst hN
  rw [runTotal_eq_sum]

end Cert.LibRunTotal
-- ==== Proof.KernelTotal.lean ====
/-
  The running value across the grid. After grid point n the carried 1 × 1 value holds the running total of the points'
  contributions: zero plus the first point's at point 0, the previous total plus the point's afterwards (an induction
  over the point, using what each case of the body leaves). After the last point it is the sum of all 64
  contributions, which is the sum of the row losses of all 262144 rows; the last point copies it to the output block.
-/
import proofs.«138014_j1322849927791_2_alg».proof.Proof.KernelPieces
import proofs.«138014_j1322849927791_2_alg».proof.Proof.KernelRow
import proofs.«138014_j1322849927791_2_alg».proof.Proof.KernelBlocks
import proofs.«138014_j1322849927791_2_alg».proof.Proof.LibRunTotal

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ)

/-- The running value after a point, at its one entry: the value found plus the sum of the block's row losses. -/
theorem accOf_apply (cs : Vec Ideal S5x128 .f32) (X : Fin 5 → Vec Ideal S4096x128 .f32) (xs : Vec Ideal S1x1 .f32) :
    accOf (F := Ideal) (X 0) (X 1) (X 2) (X 3) (X 4) cs xs (ix2 (0 : Fin 1) (0 : Fin 1))
      = xs (ix2 (0 : Fin 1) (0 : Fin 1)) + ∑ j : Fin 4096, rowLossAt X cs j :=
  accum_apply cs X xs

/-- The block of zeros the first point stores is zero at its one entry. -/
theorem pay1_apply : k0_pay1 (F := Ideal) (ix2 (0 : Fin 1) (0 : Fin 1)) = 0 := by
  unfold k0_pay1
  rw [shapeCast_self]
  exact Ideal.ofBits_zero_f32

/-- A point's contribution: the sum of the row losses of its block's 4096 rows. -/
def part (c : Dev nD) (t : Fin cfg0.N) : EReal := ∑ j : Fin 4096, rowLossAt (blocks m c t) (centresK m c) j

/-- What the three cases leave in the carried value (and, at the last point, in the output block), at point `t`. -/
theorem snd_A (c : Dev nD) (t : Fin cfg0.N) (h0 : t.val % 64 = 0) (h1 : ¬t.val % 64 = 63) :
    (outsAt0 m c t.val t.isLt).2 = accOf (iblk m c 0 t) (iblk m c 1 t) (iblk m c 2 t) (iblk m c 3 t) (iblk m c 4 t) (iblk m c 5 t) (k0_pay1 (F := Ideal)) := by
  rw [outsAt0_A m c t h0 h1]
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem snd_B (c : Dev nD) (t : Fin cfg0.N) (h0 : ¬t.val % 64 = 0) (h1 : ¬t.val % 64 = 63) :
    (outsAt0 m c t.val t.isLt).2 = accOf (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  rw [outsAt0_B m c t h0 h1]
  exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

theorem snd_C (c : Dev nD) (t : Fin cfg0.N) (h0 : ¬t.val % 64 = 0) (h1 : t.val % 64 = 63) :
    (outsAt0 m c t.val t.isLt).2 = accOf (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  rw [outsAt0_C m c t h0 h1]
  exact scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

theorem fst_C (c : Dev nD) (t : Fin cfg0.N) (h0 : ¬t.val % 64 = 0) (h1 : t.val % 64 = 63) :
    (outsAt0 m c t.val t.isLt).1 = accOf (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- The carried value's entry after point `t`: the entry found plus the point's contribution. -/
theorem entry_of_acc (c : Dev nD) (t : Fin cfg0.N) (xs : Vec Ideal S1x1 .f32) :
    accOf (F := Ideal) (iblk m c 0 t) (iblk m c 1 t) (iblk m c 2 t) (iblk m c 3 t) (iblk m c 4 t) (iblk m c 5 t) xs (ix2 (0 : Fin 1) (0 : Fin 1)) = xs (ix2 (0 : Fin 1) (0 : Fin 1)) + part m c t := by
  unfold part
  rw [← iblk5_eq m c t]
  exact accOf_apply (iblk m c 5 t) (blocks m c t) xs

/-- After point `n` the carried value is the running total of the contributions up to `n`. -/
theorem scratch_eq (c : Dev nD) : ∀ (n : ℕ) (h : n < cfg0.N),
    (outsAt0 m c n h).2 (ix2 (0 : Fin 1) (0 : Fin 1)) = Cert.LibRunTotal.runTotal (part m c) n h
  | 0, h => by
    have e := snd_A m c ⟨0, h⟩ rfl (by show ¬(0 : ℕ) % 64 = 63; decide)
    rw [show (outsAt0 m c 0 h).2 = _ from e, entry_of_acc, pay1_apply]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · have e := snd_C m c ⟨n + 1, h⟩ h0 h1
      rw [show (outsAt0 m c (n + 1) h).2 = _ from e, entry_of_acc]
      show (outsAt0 m c n _).2 (ix2 (0 : Fin 1) (0 : Fin 1)) + _ = Cert.LibRunTotal.runTotal (part m c) n _ + _
      rw [scratch_eq c n]
    · have e := snd_B m c ⟨n + 1, h⟩ h0 h1
      rw [show (outsAt0 m c (n + 1) h).2 = _ from e, entry_of_acc]
      show (outsAt0 m c n _).2 (ix2 (0 : Fin 1) (0 : Fin 1)) + _ = Cert.LibRunTotal.runTotal (part m c) n _ + _
      rw [scratch_eq c n]

/-- The last grid point. -/
def tLast : Fin cfg0.N := ⟨63, by rw [show cfg0.N = 64 from N_0]; decide⟩

/-- The sum of the 64 contributions is the sum of all rows' losses. -/
theorem sum_parts (c : Dev nD) :
    ∑ t : Fin cfg0.N, part m c t = ∑ r : Fin 262144, rowLossAt (argsK m c) (centresK m c) r := by
  refine Eq.trans ?_ (sum_rows_blocks _).symm
  refine Eq.trans ?_ (Equiv.sum_comp (finCongr (show cfg0.N = 64 from N_0))
    (fun t' : Fin 64 => ∑ j : Fin 4096, rowLossAt (argsK m c) (centresK m c) ⟨t'.val * 4096 + j.val, Cert.LibReindex.mul_add_lt t' j⟩))
  refine Finset.sum_congr rfl fun t _ => Finset.sum_congr rfl fun j _ => ?_
  exact rowLoss_block m c t j _ rfl

/-- What the output block receives at the last point: at its one entry, the total loss of all rows. -/
theorem out_last (c : Dev nD) :
    (outsAt0 m c tLast.val tLast.isLt).1 (ix2 (0 : Fin 1) (0 : Fin 1)) = ∑ r : Fin 262144, rowLossAt (argsK m c) (centresK m c) r := by
  have h0 : ¬(tLast : Fin cfg0.N).val % 64 = 0 := by show ¬(63 : ℕ) % 64 = 0; decide
  have h1 : (tLast : Fin cfg0.N).val % 64 = 63 := by show (63 : ℕ) % 64 = 63; decide
  rw [fst_C m c tLast h0 h1, ← snd_C m c tLast h0 h1]
  rw [show (outsAt0 m c tLast.val tLast.isLt) = outsAt0 m c 63 tLast.isLt from rfl, scratch_eq m c 63 tLast.isLt,
    Cert.LibRunTotal.runTotal_last (show cfg0.N = 63 + 1 from N_0) (part m c) tLast.isLt]
  exact sum_parts m c

end Cert.KernelIdeal.KValue

end
-- ==== Proof.Loss.lean ====
/-
  The result both programs end at: the total of all rows' losses, floored at zero, as a rank-0 array. Both programs
  floor by taking the maximum with the same zero word, so it is enough to show that what they floor is the total.
-/
import proofs.«138014_j1322849927791_2_alg».proof.Proof.RowTerm

noncomputable section

open scoped BigOperators

namespace Cert.Spec

open Idealize.ShloMosaic Idealize.ShloMosaic.ValueIdx

/-- The loss: the sum of the 262144 rows' losses, floored at zero. -/
def lossOf (X : Fin 5 → (⟨2, ![262144, 128]⟩ : Shape).Idx → EReal) (C : (⟨2, ![5, 128]⟩ : Shape).Idx → EReal) :
    (⟨0, ![]⟩ : Shape).Idx → EReal :=
  fun _ => max (∑ r : Fin 262144, rowLossAt X C r) (Ideal.ofBits .f32 0x00000000#32)

/-- A rank-0 array whose entry is the total, floored by the maximum with the zero word, is the loss. -/
theorem floor_eq (A : FVec Ideal ⟨0, ![]⟩ .f32) (X : Fin 5 → (⟨2, ![262144, 128]⟩ : Shape).Idx → EReal)
    (C : (⟨2, ![5, 128]⟩ : Shape).Idx → EReal) (h : ∀ j, A j = ∑ r : Fin 262144, rowLossAt X C r) :
    maximumf (F := Ideal) A (constant (F := Ideal) ⟨0, ![]⟩ .f32 0x00000000#32) = lossOf X C :=
  funext fun j => by rw [maximumf_apply, h j]; rfl

end Cert.Spec

end
-- ==== Proof.KernelRun.lean ====
/-
  The kernel program's run, read. The output block is written back once, after the last grid point, and that block is
  the whole 1 × 1 result array; so after the region the array holds what the last point stored, whose one entry is the
  total loss. The two host lines after the region flatten it to rank 0 and floor it at zero.
-/
import proofs.«138014_j1322849927791_2_alg».proof.Proof.KernelTotal
import proofs.«138014_j1322849927791_2_alg».proof.Proof.Loss
import Idealize.ShloMosaic.Lib.StableHlo.Run
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- What the last point stores to the output block, as contents of the result array (its one block is the array). -/
def outFinal (c : Dev nD) : Buf (Elt Ideal) ((c : Thread nD τ).loc main_v0) := (outsAt0 m c tLast.val tLast.isLt).1

/-- The output window's block index is (0, 0) at every point. Decided over the grid. -/
theorem idx_out : ∀ t : Fin cfg0.N, win0_6.index t 0 = 0 ∧ win0_6.index t 1 = 0 :=
  (by decide +kernel : ∀ t : Fin grid0.N, win0_6.index t 0 = 0 ∧ win0_6.index t 1 = 0)

/-- The one write-back, after the last point, writes it: the block at (0, 0) of the 1 × 1 array is the array. -/
theorem flushed_eq (c : Dev nD) (t : Fin cfg0.N) (hf : (cfg0.win 6).flush t = true) :
    (dats m 0 c).flushed 6 t = ((cfg0.win 6).blk t).view.read (Elt Ideal) (outFinal m c) := by
  have hN : cfg0.N = 64 := N_0
  have h63 : t.val = 63 := by have := (flush0_6 t).mp hf; have := t.isLt; omega
  obtain rfl : t = tLast := Fin.ext h63
  show (cfg0.win 6).cut (grid0.coords tLast) ((dats m 0 c).after 6 tLast) = _
  rw [after0_6]
  have hz' : (fun a => win0_6.index tLast a * main_v0.ty.shape.size a) = fun _ => 0 := funext fun a => by
    match a with
    | ⟨0, _⟩ => show win0_6.index tLast 0 * _ = 0; rw [(idx_out tLast).1, Nat.zero_mul]
    | ⟨1, _⟩ => show win0_6.index tLast 1 * _ = 0; rw [(idx_out tLast).2, Nat.zero_mul]
  exact (Memref.read_access_unit_zero (Elt Ideal) main_v0 hz' (fun a => by rw [congrFun hz' a]; simp) (outFinal m c)).symm

/-- So the result array ends holding what the last point stored: that point's block covers the array. -/
theorem final_out (c : Dev nD) : (dats m 0 c).arrAt 6 cfg0.N = outFinal m c :=
  (dats m 0 c).arrAt_eq_of_cover 6 (outFinal m c) (flushed_eq m c) fun i =>
    ⟨tLast, (flush0_6 tLast).mpr rfl, by
      show i ∈ ((View.whole main_v0).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat) ∧ (i 0 : Nat) < win0_6.index tLast 0 * win0_6.size 0 + win0_6.xsize (grid0.coords tLast) 0
        rw [(idx_out tLast).1, show win0_6.xsize (grid0.coords tLast) 0 = 1 from by decide +kernel]; omega
      | ⟨1, _⟩ =>
        show win0_6.index tLast 1 * win0_6.size 1 ≤ (i 1 : Nat) ∧ (i 1 : Nat) < win0_6.index tLast 1 * win0_6.size 1 + win0_6.xsize (grid0.coords tLast) 1
        rw [(idx_out tLast).2, show win0_6.xsize (grid0.coords tLast) 1 = 1 from by decide +kernel]; omega⟩

/-- The result array's one entry is the total loss. -/
theorem outFinal_apply (c : Dev nD) :
    (outFinal m c : Vec Ideal S1x1 .f32) (ix2 (0 : Fin 1) (0 : Fin 1)) = ∑ r : Fin 262144, rowLossAt (argsK m c) (centresK m c) r :=
  out_last m c

/-- The 1 × 1 array flattened to rank 0 reads its one entry. -/
theorem flatten_apply (x : Vec Ideal S1x1 .f32) (h : S1x1.ShapeCasts S_) (j : S_.Idx) :
    shapeCast S_ x h j = x (ix2 (0 : Fin 1) (0 : Fin 1)) :=
  shapeCast_apply x h j (ix2 (0 : Fin 1) (0 : Fin 1)) (by
    have h1 := (S_.rowMajor j).isLt
    have h2 : S_.numel = 1 := rfl
    rw [Shape.rowMajor_val_two]
    show 0 * 1 + 0 = _
    omega)

/-- The host lines after the region leave the loss in the result buffer. -/
theorem tail_v2 (c : Dev nD) :
    Pipeline.afterTail₀ cfgs (dats m) 0 (V0 m) [hostOps1] c main_v2 = lossOf (argsK m c) (centresK m c) := by
  have e : Pipeline.withArrays (cfgs 0).spec c (V0 m c) (fun w => (dats m 0 c).arrAt w (cfgs 0).N) (Proc.devRef .tc main_v0)
      = outFinal m c :=
    (Pipeline.withArrays_arr spec0 launch0.win.arr_inj c _ _ 6).trans (final_out m c)
  unfold Pipeline.afterTail₀
  show StableHlo.after hostOps1 _ (Proc.devRef .tc main_v2) = _
  after_results
  refine floor_eq _ _ _ fun j => ?_
  rw [e]
  exact (flatten_apply (outFinal m c) _ j).trans (outFinal_apply m c)

/-- The run, read: the result buffer at the loss of the arrays as found, every argument unchanged. -/
theorem run : θ_run defs (onTc (τ := τ) (main (F := Ideal))) ⟨m, fun _ => 0, ρ⟩ fun r => ∀ c : Dev nD,
      r.2.mem ((c.tc : Thread nD τ).loc main_v2) = lossOf (argsK m c) (centresK m c)
      ∧ r.2.mem ((c.tc : Thread nD τ).loc main_arg5) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v2 (by decide)).trans (tail_v2 m c),
      ((h c).1 5).trans (((dats m 0 c).arrAt_in 5 rfl _).trans ((A_eq m c 5).trans (V_main_arg5 m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KValue

end
-- ==== Proof.LibHostLayout.lean ====
/-
  Host layout operations of small rank read at an index given by its coordinates: the `broadcast_in_dim` forms a
  `keepdims` sum and a row of per-column values go through ([a] → [a, 1] → [a, b], [b] → [1, b] → [a, b]), a rank-0
  value broadcast to any shape, and the cast that drops a trailing unit axis ([a, 1] → [a]).
-/
import Idealize.ShloMosaic.Lib.Pipeline.Value
import Idealize.ShloMosaic.Lib.ValueIdx

namespace Cert.LibHostLayout

open Idealize.ShloMosaic Idealize.ShloMosaic.ValueIdx

variable {α : Type}

/-- An `[a]` vector broadcast along axis 0 of `[a, 1]` reads, at `(i, u)`, the vector at `i`. -/
theorem bcast_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims 0)).val
    rw [hd]
    split
    · have := i.isLt; omega
    · rfl

/-- An `[a, 1]` column broadcast to `[a, b]` (axes kept in place) reads, at `(p, c)`, the column at row `p`. -/
theorem bcast_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims 0)).val
    rw [hd0]
    split
    · have := p.isLt; omega
    · rfl
  | ⟨1, _⟩ =>
    show 0 = if (1 : ℕ) = 1 then 0 else (ix2 p c (dims 1)).val
    rw [if_pos rfl]

/-- A `[b]` vector broadcast along axis 1 of `[1, b]` reads, at `(u, c)`, the vector at `c`. -/
theorem bcast_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims 0)).val
    rw [hd]
    split
    · have := c.isLt; omega
    · rfl

/-- A `[1, b]` row broadcast to `[a, b]` (axes kept in place) reads, at `(p, c)`, the row at column `c`. -/
theorem bcast_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ =>
    show 0 = if (1 : ℕ) = 1 then 0 else (ix2 p c (dims 0)).val
    rw [if_pos rfl]
  | ⟨1, _⟩ =>
    show c.val = if b = 1 then 0 else (ix2 p c (dims 1)).val
    rw [hd1]
    split
    · have := c.isLt; omega
    · rfl

/-- A rank-0 value broadcast to any shape reads, at every index, that value. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun ax => ax.elim0

/-- An `[a, 1]` column cast to an `[a]` vector reads, at `i`, the column at `(i, 0)`: both have row-major position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibHostLayout
-- ==== Proof.RefTile.lean ====
/-
  The reference's distance tile. For an array `A` of 262144 rows and the five centres `C` the reference computes the
  262144 × 5 array whose entry (r, i) is  (‖A_r‖² + ‖C_i‖²) − 2·⟨A_r, C_i⟩ : each squared norm a host sum from zero over
  the 128 entries, the cross term the product of `A` with the transposed centres.
-/
import proofs.«138014_j1322849927791_2_alg».proof.Proof.Gen.ReferenceIdeal.Run
import proofs.«138014_j1322849927791_2_alg».proof.Proof.RowTerm
import proofs.«138014_j1322849927791_2_alg».proof.Proof.LibRowOps
import proofs.«138014_j1322849927791_2_alg».proof.Proof.LibHostLayout
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.ReferenceIdeal.RefValue

open Idealize.ShloMosaic Idealize.ShloMosaic.ValueIdx Cert.ReferenceIdeal Cert.ReferenceIdeal.Gen Cert.Spec

/-- Inserting column `k` into the one-coordinate index `r` of the row sums gives entry (r, k). -/
theorem lift_rows {n : Nat} (hr : (⟨2, ![n, 128]⟩ : Shape).Reduces [1] ⟨1, ![n]⟩) (r : Fin n) (k : Fin 128) :
    hr.lift (ix1 r) k = ix2 r k :=
  funext fun a => Fin.ext (by match a with | ⟨0, _⟩ => rfl | ⟨1, _⟩ => rfl)

/-- The host sum, from zero, of the squares along a row: the row's squared norm. -/
theorem rowSq_apply {n : Nat} (A : FVec Ideal ⟨2, ![n, 128]⟩ .f32) (h' : (⟨2, ![n, 128]⟩ : Shape).ReducesTo [1] ⟨1, ![n]⟩)
    (hr : (⟨2, ![n, 128]⟩ : Shape).Reduces [1] ⟨1, ![n]⟩) (hu : 0 < S_.numel) (r : Fin n) :
    Host.reduceAdd (F := Ideal) (mulf (F := Ideal) A A) (constant (F := Ideal) S_ .f32 0x00000000#32) h' hu (ix1 r)
      = ∑ k : Fin 128, A (ix2 r k) * A (ix2 r k) := by
  refine (Ideal.hostReduceAdd_single h' hr (mulf (F := Ideal) A A) _ (ix1 r)).trans ?_
  rw [show (constant (F := Ideal) S_ .f32 0x00000000#32) (Shape.Idx.first hu) = Ideal.ofBits .f32 0x00000000#32 from rfl,
    Ideal.ofBits_zero_f32, zero_add]
  refine Finset.sum_congr rfl fun (k : Fin 128) _ => ?_
  rw [lift_rows]; rfl

/-- The reference's product contracts the rows' 128 entries against the transposed centres' 128 rows. -/
theorem dot_plain : dot_S262144x128_S128x5_S262144x5_1_0_0_1_n_n = DotDims.plain 262144 128 5 :=
  Cert.RowLib.dotDims_eq_plain _ rfl rfl rfl rfl rfl rfl

/-- The product of the array with the transposed centres: entry (r, i) is ⟨A_r, C_i⟩. -/
theorem cross_apply (A : FVec Ideal S262144x128 .f32) (C : FVec Ideal S5x128 .f32) (r : Fin 262144) (i : Fin 5) :
    Host.dotGeneral (F := Ideal) dot_S262144x128_S128x5_S262144x5_1_0_0_1_n_n none A
        (transpose S128x5 [1, 0] C transposes_S5x128_S128x5_1_0) (ix2 r i)
      = ∑ k : Fin 128, A (ix2 r k) * C (ix2 i k) := by
  rw [dot_plain]
  refine (StackMember.dotGeneral_plain_apply none A _ r i).trans ?_
  refine Finset.sum_congr rfl fun k _ => ?_
  rw [transpose_ix2_apply]

/-- The reference's tile of one array against the centres, as its program spells it for each of the five arrays. -/
def rtile (C : FVec Ideal S5x128 .f32) (A : FVec Ideal S262144x128 .f32) : FVec Ideal S262144x5 .f32 :=
  subf (F := Ideal)
    (addf (F := Ideal)
      (broadcastInDim S262144x5 ![0, 1] bcast_S262144x1_S262144x5_0_1
        (broadcastInDim S262144x1 ![0] bcast_S262144_S262144x1_0
          (Host.reduceAdd (F := Ideal) (mulf (F := Ideal) A A) (constant (F := Ideal) S_ .f32 0x00000000#32) reducesTo_S262144x128_S262144_d1 h_S_)))
      (broadcastInDim S262144x5 ![0, 1] bcast_S1x5_S262144x5_0_1
        (broadcastInDim S1x5 ![1] bcast_S5_S1x5_1
          (Host.reduceAdd (F := Ideal) (mulf (F := Ideal) C C) (constant (F := Ideal) S_ .f32 0x00000000#32) reducesTo_S5x128_S5_d1 h_S_))))
    (mulf (F := Ideal) (broadcastInDim S262144x5 ![] bcast_S_S262144x5 (constant (F := Ideal) S_ .f32 0x40000000#32))
      (Host.dotGeneral (F := Ideal) dot_S262144x128_S128x5_S262144x5_1_0_0_1_n_n none A
        (transpose S128x5 [1, 0] C transposes_S5x128_S128x5_1_0)))

/-- Entry (r, i) of the reference's tile is the squared distance of row `r` to centre `i`. -/
theorem rtile_apply (C : FVec Ideal S5x128 .f32) (A : FVec Ideal S262144x128 .f32) (r : Fin 262144) (i : Fin 5) :
    rtile C A (ix2 r i) = sqDist (rowOf A r) (rowOf C i) := by
  unfold rtile
  rw [subf_apply, addf_apply, mulf_apply,
    Cert.LibHostLayout.bcast_a1_ab_apply _ rfl rfl _ _ r i, Cert.LibHostLayout.bcast_a_a1_apply _ rfl _ _ r (0 : Fin 1),
    Cert.LibHostLayout.bcast_1b_ab_apply _ rfl rfl _ _ r i, Cert.LibHostLayout.bcast_b_1b_apply _ rfl _ _ (0 : Fin 1) i,
    Cert.LibHostLayout.bcast_scalar_apply, cross_apply,
    rowSq_apply A _ (by decide) _ r, rowSq_apply C _ (by decide) _ i]
  rfl

end Cert.ReferenceIdeal.RefValue

end
-- ==== Proof.LibIndexSum.lean ====
/-
  A sum over the indices of a rank-1 shape is the sum over its one coordinate.
-/
import Idealize.ShloMosaic.Lib.ValueIdx
import Mathlib.Algebra.BigOperators.Fin

open scoped BigOperators

namespace Cert.LibIndexSum

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.LibIndexSum
-- ==== Proof.RefRow.lean ====
/-
  The reference's result. Its program picks single columns of the five distance arrays, combines them row by row into
  the three margins and adds them: entry r of that vector is the row loss of row r. The host sum from zero over all
  262144 rows is then the total loss.
-/
import proofs.«138014_j1322849927791_2_alg».proof.Proof.RefTile
import proofs.«138014_j1322849927791_2_alg».proof.Proof.LibIndexSum

noncomputable section

open scoped BigOperators

namespace Cert.ReferenceIdeal.RefValue

open Idealize.ShloMosaic Idealize.ShloMosaic.ValueIdx Cert.ReferenceIdeal Cert.ReferenceIdeal.Gen Cert.ReferenceIdeal.Value Cert.Spec
open Idealize.ShloMosaic.StableHlo

/-- The five row arrays of a valuation, in the order x, nx, ni, nx1, ni1. -/
def argsOf (V0 : Valuation τ sig (Elt Ideal)) : Fin 5 → FVec Ideal S262144x128 .f32 := fun
  | 0 => V0 (Proc.devRef .tc main_arg0)
  | 1 => V0 (Proc.devRef .tc main_arg1)
  | 2 => V0 (Proc.devRef .tc main_arg2)
  | 3 => V0 (Proc.devRef .tc main_arg3)
  | 4 => V0 (Proc.devRef .tc main_arg4)
  | ⟨_ + 5, h⟩ => absurd h (Nat.not_lt.2 (Nat.le_add_left _ _))

/-- The centres of a valuation. -/
def centresOf (V0 : Valuation τ sig (Elt Ideal)) : FVec Ideal S5x128 .f32 := V0 (Proc.devRef .tc main_arg5)

/-- The five named distance arrays of the reference's run are the tile of each array against the centres. -/
theorem res13_eq (V0 : Valuation τ sig (Elt Ideal)) : res_main_v13 (F := Ideal) V0 = rtile (centresOf V0) (argsOf V0 0) := rfl
theorem res27_eq (V0 : Valuation τ sig (Elt Ideal)) : res_main_v27 (F := Ideal) V0 = rtile (centresOf V0) (argsOf V0 1) := rfl
theorem res41_eq (V0 : Valuation τ sig (Elt Ideal)) : res_main_v41 (F := Ideal) V0 = rtile (centresOf V0) (argsOf V0 2) := rfl
theorem res55_eq (V0 : Valuation τ sig (Elt Ideal)) : res_main_v55 (F := Ideal) V0 = rtile (centresOf V0) (argsOf V0 3) := rfl
theorem res69_eq (V0 : Valuation τ sig (Elt Ideal)) : res_main_v69 (F := Ideal) V0 = rtile (centresOf V0) (argsOf V0 4) := rfl

/-- Column `o` of a distance array, cut out and flattened to a vector, reads the array at (r, o). -/
theorem pick0_apply (T : FVec Ideal S262144x5 .f32) (h : S262144x5.Slices ![0, 0] S262144x1) (hc : S262144x1.ShapeCasts S262144)
    (r : Fin 262144) : shapeCast S262144 (extractStridedSlice S262144x1 ![0, 0] T h) hc (ix1 r) = T (ix2 r (0 : Fin 5)) :=
  (Cert.LibHostLayout.shapeCast_a1_a_apply _ hc r).trans (slice2_axis1_apply 0 T h r 0 0 rfl)
theorem pick1_apply (T : FVec Ideal S262144x5 .f32) (h : S262144x5.Slices ![0, 1] S262144x1) (hc : S262144x1.ShapeCasts S262144)
    (r : Fin 262144) : shapeCast S262144 (extractStridedSlice S262144x1 ![0, 1] T h) hc (ix1 r) = T (ix2 r (1 : Fin 5)) :=
  (Cert.LibHostLayout.shapeCast_a1_a_apply _ hc r).trans (slice2_axis1_apply 1 T h r 0 1 rfl)
theorem pick2_apply (T : FVec Ideal S262144x5 .f32) (h : S262144x5.Slices ![0, 2] S262144x1) (hc : S262144x1.ShapeCasts S262144)
    (r : Fin 262144) : shapeCast S262144 (extractStridedSlice S262144x1 ![0, 2] T h) hc (ix1 r) = T (ix2 r (2 : Fin 5)) :=
  (Cert.LibHostLayout.shapeCast_a1_a_apply _ hc r).trans (slice2_axis1_apply 2 T h r 0 2 rfl)
theorem pick3_apply (T : FVec Ideal S262144x5 .f32) (h : S262144x5.Slices ![0, 3] S262144x1) (hc : S262144x1.ShapeCasts S262144)
    (r : Fin 262144) : shapeCast S262144 (extractStridedSlice S262144x1 ![0, 3] T h) hc (ix1 r) = T (ix2 r (3 : Fin 5)) :=
  (Cert.LibHostLayout.shapeCast_a1_a_apply _ hc r).trans (slice2_axis1_apply 3 T h r 0 3 rfl)
theorem pick4_apply (T : FVec Ideal S262144x5 .f32) (h : S262144x5.Slices ![0, 4] S262144x1) (hc : S262144x1.ShapeCasts S262144)
    (r : Fin 262144) : shapeCast S262144 (extractStridedSlice S262144x1 ![0, 4] T h) hc (ix1 r) = T (ix2 r (4 : Fin 5)) :=
  (Cert.LibHostLayout.shapeCast_a1_a_apply _ hc r).trans (slice2_axis1_apply 4 T h r 0 4 rfl)

/-- The reference's row-by-row combination of five distance arrays into the vector of the three margins' sums. -/
def margins (d0 d1 d2 d3 d4 : FVec Ideal S262144x5 .f32) : FVec Ideal S262144 .f32 :=
  addf (addf (subf (addf (addf (addf (addf (shapeCast S262144 (extractStridedSlice S262144x1 ![0, 0] d0 slices_S262144x5_S262144x1_0_0) shapeCasts_S262144x1_S262144) (shapeCast S262144 (extractStridedSlice S262144x1 ![0, 1] d1 slices_S262144x5_S262144x1_0_1) shapeCasts_S262144x1_S262144)) (shapeCast S262144 (extractStridedSlice S262144x1 ![0, 2] d3 slices_S262144x5_S262144x1_0_2) shapeCasts_S262144x1_S262144)) (shapeCast S262144 (extractStridedSlice S262144x1 ![0, 3] d2 slices_S262144x5_S262144x1_0_3) shapeCasts_S262144x1_S262144)) (shapeCast S262144 (extractStridedSlice S262144x1 ![0, 4] d4 slices_S262144x5_S262144x1_0_4) shapeCasts_S262144x1_S262144)) (mulf (broadcastInDim S262144 ![] bcast_S_S262144 (constant (F := Ideal) S_ .f32 0x3E99999A#32)) (addf (addf (addf (addf (addf (addf (addf (shapeCast S262144 (extractStridedSlice S262144x1 ![0, 1] d0 slices_S262144x5_S262144x1_0_1) shapeCasts_S262144x1_S262144) (shapeCast S262144 (extractStridedSlice S262144x1 ![0, 2] d0 slices_S262144x5_S262144x1_0_2) shapeCasts_S262144x1_S262144)) (shapeCast S262144 (extractStridedSlice S262144x1 ![0, 3] d0 slices_S262144x5_S262144x1_0_3) shapeCasts_S262144x1_S262144)) (shapeCast S262144 (extractStridedSlice S262144x1 ![0, 4] d0 slices_S262144x5_S262144x1_0_4) shapeCasts_S262144x1_S262144)) (shapeCast S262144 (extractStridedSlice S262144x1 ![0, 0] d1 slices_S262144x5_S262144x1_0_0) shapeCasts_S262144x1_S262144)) (shapeCast S262144 (extractStridedSlice S262144x1 ![0, 0] d2 slices_S262144x5_S262144x1_0_0) shapeCasts_S262144x1_S262144)) (shapeCast S262144 (extractStridedSlice S262144x1 ![0, 0] d3 slices_S262144x5_S262144x1_0_0) shapeCasts_S262144x1_S262144)) (shapeCast S262144 (extractStridedSlice S262144x1 ![0, 0] d4 slices_S262144x5_S262144x1_0_0) shapeCasts_S262144x1_S262144)))) (subf (addf (addf (addf (shapeCast S262144 (extractStridedSlice S262144x1 ![0, 1] d1 slices_S262144x5_S262144x1_0_1) shapeCasts_S262144x1_S262144) (shapeCast S262144 (extractStridedSlice S262144x1 ![0, 3] d2 slices_S262144x5_S262144x1_0_3) shapeCasts_S262144x1_S262144)) (shapeCast S262144 (extractStridedSlice S262144x1 ![0, 2] d3 slices_S262144x5_S262144x1_0_2) shapeCasts_S262144x1_S262144)) (shapeCast S262144 (extractStridedSlice S262144x1 ![0, 4] d4 slices_S262144x5_S262144x1_0_4) shapeCasts_S262144x1_S262144)) (mulf (broadcastInDim S262144 ![] bcast_S_S262144 (constant (F := Ideal) S_ .f32 0x3E99999A#32)) (addf (addf (addf (shapeCast S262144 (extractStridedSlice S262144x1 ![0, 3] d1 slices_S262144x5_S262144x1_0_3) shapeCasts_S262144x1_S262144) (shapeCast S262144 (extractStridedSlice S262144x1 ![0, 1] d2 slices_S262144x5_S262144x1_0_1) shapeCasts_S262144x1_S262144)) (shapeCast S262144 (extractStridedSlice S262144x1 ![0, 4] d3 slices_S262144x5_S262144x1_0_4) shapeCasts_S262144x1_S262144)) (shapeCast S262144 (extractStridedSlice S262144x1 ![0, 2] d4 slices_S262144x5_S262144x1_0_2) shapeCasts_S262144x1_S262144))))) (subf (addf (addf (addf (shapeCast S262144 (extractStridedSlice S262144x1 ![0, 1] d1 slices_S262144x5_S262144x1_0_1) shapeCasts_S262144x1_S262144) (shapeCast S262144 (extractStridedSlice S262144x1 ![0, 2] d3 slices_S262144x5_S262144x1_0_2) shapeCasts_S262144x1_S262144)) (shapeCast S262144 (extractStridedSlice S262144x1 ![0, 3] d2 slices_S262144x5_S262144x1_0_3) shapeCasts_S262144x1_S262144)) (shapeCast S262144 (extractStridedSlice S262144x1 ![0, 4] d4 slices_S262144x5_S262144x1_0_4) shapeCasts_S262144x1_S262144)) (mulf (broadcastInDim S262144 ![] bcast_S_S262144 (constant (F := Ideal) S_ .f32 0x3E99999A#32)) (addf (addf (addf (shapeCast S262144 (extractStridedSlice S262144x1 ![0, 2] d1 slices_S262144x5_S262144x1_0_2) shapeCasts_S262144x1_S262144) (shapeCast S262144 (extractStridedSlice S262144x1 ![0, 1] d3 slices_S262144x5_S262144x1_0_1) shapeCasts_S262144x1_S262144)) (shapeCast S262144 (extractStridedSlice S262144x1 ![0, 4] d2 slices_S262144x5_S262144x1_0_4) shapeCasts_S262144x1_S262144)) (shapeCast S262144 (extractStridedSlice S262144x1 ![0, 3] d4 slices_S262144x5_S262144x1_0_3) shapeCasts_S262144x1_S262144))))

set_option maxRecDepth 65536 in
set_option maxHeartbeats 4000000 in
/-- The run's named vector is that combination of the run's five named distance arrays. -/
theorem res161_eq (V0 : Valuation τ sig (Elt Ideal)) :
    res_main_v161 (F := Ideal) V0
      = margins (res_main_v13 (F := Ideal) V0) (res_main_v27 (F := Ideal) V0) (res_main_v41 (F := Ideal) V0)
          (res_main_v55 (F := Ideal) V0) (res_main_v69 (F := Ideal) V0) := rfl

/-- Entry r of the combination is the row loss of the five arrays' entries in row r. -/
theorem margins_apply (d : Fin 5 → FVec Ideal S262144x5 .f32) (r : Fin 262144) :
    margins (d 0) (d 1) (d 2) (d 3) (d 4) (ix1 r) = rowLoss fun a i => d a (ix2 r i) := by
  unfold margins rowLoss
  simp only [addf_apply, subf_apply, mulf_apply, Cert.LibHostLayout.bcast_scalar_apply, pick0_apply, pick1_apply, pick2_apply,
    pick3_apply, pick4_apply]
  rfl

/-- The five distance arrays of a valuation. -/
def tilesOf (V0 : Valuation τ sig (Elt Ideal)) : Fin 5 → FVec Ideal S262144x5 .f32 := fun a => rtile (centresOf V0) (argsOf V0 a)

/-- Entry r of the reference's vector of margins' sums is the row loss of row r. -/
theorem rowTerm_apply (V0 : Valuation τ sig (Elt Ideal)) (r : Fin 262144) :
    res_main_v161 (F := Ideal) V0 (ix1 r) = rowLossAt (argsOf V0) (centresOf V0) r := by
  rw [res161_eq, res13_eq, res27_eq, res41_eq, res55_eq, res69_eq]
  refine (margins_apply (tilesOf V0) r).trans ?_
  unfold rowLossAt tilesOf
  simp only [rtile_apply]

/-- The host sum from zero of that vector: the total of the 262144 row losses. -/
theorem total_apply (V0 : Valuation τ sig (Elt Ideal)) (j : S_.Idx) :
    Host.reduceAdd (F := Ideal) (res_main_v161 (F := Ideal) V0) (constant (F := Ideal) S_ .f32 0x00000000#32)
        reducesTo_S262144_S_d0 h_S_ j
      = ∑ r : Fin 262144, rowLossAt (argsOf V0) (centresOf V0) r := by
  refine (Ideal.hostReduceAdd_total reducesTo_S262144_S_d0 (fun b => b.elim0) (res_main_v161 (F := Ideal) V0) _ j).trans ?_
  rw [show (constant (F := Ideal) S_ .f32 0x00000000#32) (Shape.Idx.first h_S_) = Ideal.ofBits .f32 0x00000000#32 from rfl,
    Ideal.ofBits_zero_f32, zero_add, Cert.LibIndexSum.sum_idx1]
  exact Finset.sum_congr rfl fun r _ => rowTerm_apply V0 r

end Cert.ReferenceIdeal.RefValue

end
-- ==== Proof.lean ====
/-
  Kernel and reference compute one loss.

  Five arrays of 262144 row vectors (128 entries each) and five centre vectors are given. A row's loss is a fixed
  combination, with the single-precision weight nearest 3/10, of the squared distances of that row of each array to
  the centres, each squared distance written (‖v‖² + ‖c‖²) − 2·⟨v, c⟩; the result is the sum of all rows' losses,
  floored at zero, returned beside the centres. (RowTerm has the formulas.)

  The reference forms the five 262144 × 5 arrays of squared distances, picks columns, combines them row by row and
  sums the 262144 values from zero. The kernel walks the rows in 64 blocks of 4096: at each grid point it forms the
  five 4096 × 5 tiles of squared distances of the block's rows (its change of float format before the product is the
  identity on the extended reals), combines them in the same way, sums the block's rows and adds the sum to a value it
  carries from point to point, which it sets to zero at the first point and copies to the output after the last.
  Two host lines then flatten the 1 × 1 output and floor it at zero.

  Row by row the two programs spell the same expression with the same constants. So what the kernel's output holds
  is (((0 + s₀) + s₁) + …) + s₆₃ with sₜ the sum of block t's row losses, and the reference holds 0 + the sum over all
  rows; these agree because addition of extended reals is commutative and associative, so a sum over 64 · 4096
  consecutive indices is the sum of its 64 block sums. No finiteness of the inputs is used.

  The kernel's and the idealized kernel's frames are the generated ones; the reference's frame is its generated run
  with the results dropped; the idealization rewrote nothing, so it preserves the program trivially.
-/
import proofs.«138014_j1322849927791_2_alg».proof.Defs
import proofs.«138014_j1322849927791_2_alg».proof.Proof.Gen.Kernel
import proofs.«138014_j1322849927791_2_alg».proof.Proof.Gen.Kernel.Frame
import proofs.«138014_j1322849927791_2_alg».proof.Proof.Gen.KernelIdeal
import proofs.«138014_j1322849927791_2_alg».proof.Proof.Gen.KernelIdeal.Frame
import proofs.«138014_j1322849927791_2_alg».proof.Proof.Gen.ReferenceIdeal
import proofs.«138014_j1322849927791_2_alg».proof.Proof.Gen.ReferenceIdeal.Run
import proofs.«138014_j1322849927791_2_alg».proof.Proof.Gen.Pre_finite_inputs
import proofs.«138014_j1322849927791_2_alg».proof.Proof.KernelRun
import proofs.«138014_j1322849927791_2_alg».proof.Proof.RefRow
import proofs.«138014_j1322849927791_2_alg».proof.Proof.Loss
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the loss of the same arrays and with the centres unchanged. -/
theorem algebraic : Cert.algebraic_KernelIdeal_ReferenceIdeal := by
  intro m ρ m' ρ' _ hagree
  refine ⟨fun c => Cert.Spec.lossOf (Cert.KernelIdeal.KValue.argsK m c) (Cert.KernelIdeal.KValue.centresK m c),
    fun c => m ((c.tc : Thread Cert.KernelIdeal.nD Cert.KernelIdeal.τ).loc Cert.KernelIdeal.main_arg5),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hA : Cert.ReferenceIdeal.RefValue.argsOf (launchContents m' c) = Cert.KernelIdeal.KValue.argsK m c :=
      funext fun a => by
        match a with
        | 0 => exact (hagree c).1
        | 1 => exact (hagree c).2.1
        | 2 => exact (hagree c).2.2.1
        | 3 => exact (hagree c).2.2.2.1
        | 4 => exact (hagree c).2.2.2.2.1
    have hC : Cert.ReferenceIdeal.RefValue.centresOf (launchContents m' c) = Cert.KernelIdeal.KValue.centresK m c :=
      (hagree c).2.2.2.2.2
    refine (Cert.Spec.floor_eq _ _ _ fun j => Cert.ReferenceIdeal.RefValue.total_apply (launchContents m' c) j).trans ?_
    rw [hA, hC]
  · exact (hagree c).2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
